-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128x64 : Shape := ⟨2, ![128, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S50000x128 .f32) (main_arg1 : IVec S600000 32) (main_arg2 : IVec S600000 32) (main_arg3 : FVec F S600000 .f32) (main_arg4 : IVec S600000 1) (main_arg5 : FVec F S128x128 .f32) (main_arg6 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S50000x128 : Shape := ⟨2, ![50000, 128]⟩
abbrev S600000 : Shape := ⟨1, ![600000]⟩
abbrev S128x128 : Shape := ⟨2, ![128, 128]⟩
abbrev S128x64 : Shape := ⟨2, ![128, 64]⟩
abbrev S50000 : Shape := ⟨1, ![50000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S50000x64 : Shape := ⟨2, ![50000, 64]⟩
abbrev S5000x64 : Shape := ⟨2, ![5000, 64]⟩
abbrev S650000x64 : Shape := ⟨2, ![650000, 64]⟩

abbrev nBuf : Space → Nat
  | .hbm => 87
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S600000, .i1⟩
  | .hbm, ⟨5, _⟩ => ⟨S128x128, .f32⟩
  | .hbm, ⟨6, _⟩ => ⟨S128x64, .f32⟩
  | .hbm, ⟨7, _⟩ => ⟨S600000, .f32⟩
  | .hbm, ⟨8, _⟩ => ⟨S600000, .f32⟩
  | .hbm, ⟨9, _⟩ => ⟨S50000, .i32⟩
  | .hbm, ⟨10, _⟩ => ⟨S650000, .i32⟩
  | .hbm, ⟨11, _⟩ => ⟨S650000, .i32⟩
  | .hbm, ⟨12, _⟩ => ⟨S_, .f32⟩
  | .hbm, ⟨13, _⟩ => ⟨S50000, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S650000, .i32⟩
  | .hbm, ⟨32, _⟩ => ⟨S650000, .i1⟩
  | .hbm, ⟨33, _⟩ => ⟨S_, .i32⟩
  | .hbm, ⟨34, _⟩ => ⟨S650000, .i32⟩
  | .hbm, ⟨35, _⟩ => ⟨S650000, .i32⟩
  | .hbm, ⟨36, _⟩ => ⟨S650000, .i32⟩
  | .hbm, ⟨37, _⟩ => ⟨S650000x1, .i32⟩
  | .hbm, ⟨38, _⟩ => ⟨S650000, .f32⟩
  | .hbm, ⟨39, _⟩ => ⟨S650000, .f32⟩
  | .hbm, ⟨40, _⟩ => ⟨S_, .i32⟩
  | .hbm, ⟨41, _⟩ => ⟨S650000, .i32⟩
  | .hbm, ⟨42, _⟩ => ⟨S650000, .i1⟩
  | .hbm, ⟨43, _⟩ => ⟨S_, .i32⟩
  | .hbm, ⟨44, _⟩ => ⟨S650000, .i32⟩
  | .hbm, ⟨45, _⟩ => ⟨S650000, .i32⟩
  | .hbm, ⟨46, _⟩ => ⟨S650000, .i32⟩
  | .hbm, ⟨47, _⟩ => ⟨S650000x1, .i32⟩
  | .hbm, ⟨48, _⟩ => ⟨S650000, .f32⟩
  | .hbm, ⟨49, _⟩ => ⟨S650000, .f32⟩
  | .hbm, ⟨50, _⟩ => ⟨S50000x128, .f32⟩
  | .hbm, ⟨51, _⟩ => ⟨S650000x1, .f32⟩
  | .hbm, ⟨52, _⟩ => ⟨S_, .i32⟩
  | .hbm, ⟨53, _⟩ => ⟨S650000, .i32⟩
  | .hbm, ⟨54, _⟩ => ⟨S650000, .i1⟩
  | .hbm, ⟨55, _⟩ => ⟨S_, .i32⟩
  | .hbm, ⟨56, _⟩ => ⟨S650000, .i32⟩
  | .hbm, ⟨57, _⟩ => ⟨S650000, .i32⟩
  | .hbm, ⟨58, _⟩ => ⟨S650000, .i32⟩
  | .hbm, ⟨59, _⟩ => ⟨S650000x1, .i32⟩
  | .hbm, ⟨60, _⟩ => ⟨S650000x128, .f32⟩
  | .hbm, ⟨61, _⟩ => ⟨S650000x128, .f32⟩
  | .hbm, ⟨62, _⟩ => ⟨S650000x128, .f32⟩
  | .hbm, ⟨63, _⟩ => ⟨S_, .f32⟩
  | .hbm, ⟨64, _⟩ => ⟨S50000x128, .f32⟩
  | .hbm, ⟨65, _⟩ => ⟨S650000x1, .i32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x64, .f32⟩
  | .hbm, ⟨71, _⟩ => ⟨S650000x1, .f32⟩
  | .hbm, ⟨72, _⟩ => ⟨S_, .i32⟩
  | .hbm, ⟨73, _⟩ => ⟨S650000, .i32⟩
  | .hbm, ⟨74, _⟩ => ⟨S650000, .i1⟩
  | .hbm, ⟨75, _⟩ => ⟨S_, .i32⟩
  | .hbm, ⟨76, _⟩ => ⟨S650000, .i32⟩
  | .hbm, ⟨77, _⟩ => ⟨S650000, .i32⟩
  | .hbm, ⟨78, _⟩ => ⟨S650000, .i32⟩
  | .hbm, ⟨79, _⟩ => ⟨S650000x1, .i32⟩
  | .hbm, ⟨80, _⟩ => ⟨S650000x64, .f32⟩
  | .hbm, ⟨81, _⟩ => ⟨S650000x64, .f32⟩
  | .hbm, ⟨82, _⟩ => ⟨S650000x64, .f32⟩
  | .hbm, ⟨83, _⟩ => ⟨S_, .f32⟩
  | .hbm, ⟨84, _⟩ => ⟨S50000x64, .f32⟩
  | .hbm, ⟨85, _⟩ => ⟨S650000x1, .i32⟩
  | .hbm, ⟨86, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_cst : Ref sig .tc := ⟨.hbm, 67, rfl⟩
abbrev main_call1_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128x64 : Shape := ⟨2, ![128, 64]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S50000x64 : Shape := ⟨2, ![50000, 64]⟩
abbrev S650000x64 : Shape := ⟨2, ![650000, 64]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S600000, .i1⟩
  | .hbm, ⟨5, _⟩ => ⟨S128x128, .f32⟩
  | .hbm, ⟨6, _⟩ => ⟨S128x64, .f32⟩
  | .hbm, ⟨7, _⟩ => ⟨S600000, .f32⟩
  | .hbm, ⟨8, _⟩ => ⟨S600000, .f32⟩
  | .hbm, ⟨9, _⟩ => ⟨S50000, .i32⟩
  | .hbm, ⟨10, _⟩ => ⟨S650000, .i32⟩
  | .hbm, ⟨11, _⟩ => ⟨S650000, .i32⟩
  | .hbm, ⟨12, _⟩ => ⟨S_, .f32⟩
  | .hbm, ⟨13, _⟩ => ⟨S50000, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S650000, .i32⟩
  | .hbm, ⟨32, _⟩ => ⟨S650000, .i1⟩
  | .hbm, ⟨33, _⟩ => ⟨S_, .i32⟩
  | .hbm, ⟨34, _⟩ => ⟨S650000, .i32⟩
  | .hbm, ⟨35, _⟩ => ⟨S650000, .i32⟩
  | .hbm, ⟨36, _⟩ => ⟨S650000, .i32⟩
  | .hbm, ⟨37, _⟩ => ⟨S650000x1, .i32⟩
  | .hbm, ⟨38, _⟩ => ⟨S650000, .f32⟩
  | .hbm, ⟨39, _⟩ => ⟨S650000, .f32⟩
  | .hbm, ⟨40, _⟩ => ⟨S_, .i32⟩
  | .hbm, ⟨41, _⟩ => ⟨S650000, .i32⟩
  | .hbm, ⟨42, _⟩ => ⟨S650000, .i1⟩
  | .hbm, ⟨43, _⟩ => ⟨S_, .i32⟩
  | .hbm, ⟨44, _⟩ => ⟨S650000, .i32⟩
  | .hbm, ⟨45, _⟩ => ⟨S650000, .i32⟩
  | .hbm, ⟨46, _⟩ => ⟨S650000, .i32⟩
  | .hbm, ⟨47, _⟩ => ⟨S650000x1, .i32⟩
  | .hbm, ⟨48, _⟩ => ⟨S650000, .f32⟩
  | .hbm, ⟨49, _⟩ => ⟨S650000, .f32⟩
  | .hbm, ⟨50, _⟩ => ⟨S50000x128, .f32⟩
  | .hbm, ⟨51, _⟩ => ⟨S650000x1, .f32⟩
  | .hbm, ⟨52, _⟩ => ⟨S_, .i32⟩
  | .hbm, ⟨53, _⟩ => ⟨S650000, .i32⟩
  | .hbm, ⟨54, _⟩ => ⟨S650000, .i1⟩
  | .hbm, ⟨55, _⟩ => ⟨S_, .i32⟩
  | .hbm, ⟨56, _⟩ => ⟨S650000, .i32⟩
  | .hbm, ⟨57, _⟩ => ⟨S650000, .i32⟩
  | .hbm, ⟨58, _⟩ => ⟨S650000, .i32⟩
  | .hbm, ⟨59, _⟩ => ⟨S650000x1, .i32⟩
  | .hbm, ⟨60, _⟩ => ⟨S650000x128, .f32⟩
  | .hbm, ⟨61, _⟩ => ⟨S650000x128, .f32⟩
  | .hbm, ⟨62, _⟩ => ⟨S650000x128, .f32⟩
  | .hbm, ⟨63, _⟩ => ⟨S_, .f32⟩
  | .hbm, ⟨64, _⟩ => ⟨S50000x128, .f32⟩
  | .hbm, ⟨65, _⟩ => ⟨S650000x1, .i32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x64, .f32⟩
  | .hbm, ⟨71, _⟩ => ⟨S650000x1, .f32⟩
  | .hbm, ⟨72, _⟩ => ⟨S_, .i32⟩
  | .hbm, ⟨73, _⟩ => ⟨S650000, .i32⟩
  | .hbm, ⟨74, _⟩ => ⟨S650000, .i1⟩
  | .hbm, ⟨75, _⟩ => ⟨S_, .i32⟩
  | .hbm, ⟨76, _⟩ => ⟨S650000, .i32⟩
  | .hbm, ⟨77, _⟩ => ⟨S650000, .i32⟩
  | .hbm, ⟨78, _⟩ => ⟨S650000, .i32⟩
  | .hbm, ⟨79, _⟩ => ⟨S650000x1, .i32⟩
  | .hbm, ⟨80, _⟩ => ⟨S650000x64, .f32⟩
  | .hbm, ⟨81, _⟩ => ⟨S650000x64, .f32⟩
  | .hbm, ⟨82, _⟩ => ⟨S650000x64, .f32⟩
  | .hbm, ⟨83, _⟩ => ⟨S_, .f32⟩
  | .hbm, ⟨84, _⟩ => ⟨S50000x64, .f32⟩
  | .hbm, ⟨85, _⟩ => ⟨S650000x1, .i32⟩
  | .hbm, ⟨86, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_cst : Ref sig .tc := ⟨.hbm, 67, rfl⟩
abbrev main_call1_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]

class Facts₀ : Prop where
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

class Facts : Prop extends Facts₀ where

variable [Facts]
-- ==== Proof.KernelRun.lean ====
/-
  The idealized kernel's run with its result named.

  The program is eight segments: three stretches of host operations, the first matrix product on the matrix unit,
  two more stretches, the second product, and a last stretch. The contents of the device's buffers at the boundary
  after each segment are a fold from the launch memory; the run ends with every unscoped buffer at the last
  boundary's contents. The frame statement keeps only the argument arrays of that; here the result array is kept
  too, at the last boundary's contents of its buffer.
-/
import proofs.«153575_j53008486367825_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents
    of its buffer and the argument arrays end as launched. -/
theorem run_result : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Whole

end
-- ==== Proof.LibPlainMatmul.lean ====
/-
  A matrix product with plain dimension numbers, read at an entry, at the exact reading of floats as extended reals.

  `tpu.matmul` of an m×k by a k×n matrix (contracting the left operand's axis 1 with the right operand's axis 0, no
  batch axes) accumulated into the zero splat is, at entry (a, b), the sum over c of A(a, c)·B(c, b): the accumulator
  contributes `0 + ·` and nothing else, so the equation holds at the infinities too. Beside it, the one float word a
  bias row of ones needs: the f32 pattern of 1.0 reads as the number 1.
-/
import Idealize.ShloMosaic.Lib.StackMember
import Idealize.ShloMosaic.PureOps.IdealRules

noncomputable section

open scoped BigOperators

namespace Idealize.ShloMosaic.PlainMatmul

open Idealize.ShloMosaic Idealize.ShloMosaic.ValueIdx

/-- The product of an m×k by a k×n matrix accumulated into the zero splat, at entry (a, b), is the sum over the
    contracted coordinate c of A(a, c)·B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The f32 word of 1.0 denotes the number 1. -/
theorem ofBits_one_f32 : Ideal.ofBits .f32 0x3F800000#32 = 1 :=
  IdealRules.sign_bit.ideal_onePat .f32

end Idealize.ShloMosaic.PlainMatmul

end
-- ==== Proof.LibRowBlockProduct.lean ====
/-
  A block of rows of a matrix product, at the exact reading of floats as extended reals.

  Let X be an M×K matrix, W a K×N matrix, and let xb be a B×K matrix whose row p is row r of X. Then row p of the
  product xb·W, accumulated into the zero splat as a kernel's matrix unit does, is row r of the whole product X·W as
  the host's `dot_general` computes it: both are the sum over the contracted coordinate c of X(r, c)·W(c, b). The
  element formats of the operands play no part (a change of float format is the identity on extended reals), so the
  block may carry narrower formats than the whole matrices.
-/
import proofs.«153575_j53008486367825_1_alg».proof.Proof.LibPlainMatmul

noncomputable section

open scoped BigOperators

namespace Idealize.ShloMosaic.RowBlockProduct

open Idealize.ShloMosaic Idealize.ShloMosaic.ValueIdx

/-- Row `p` of `xb·wb` into the zero splat is row `r` of `X·W`, when row `p` of `xb` is row `r` of `X` and
    column `b` of `wb` is column `b` of `W`. -/
theorem matmul_rows_eq_dotGeneral {M K N B : Nat} {φ₁ φ₂ ψ₁ ψ₂ : FTy} (prec prec' : Option ContractPrecision)
    (X : FVec Ideal ⟨2, ![M, K]⟩ ψ₁) (W : FVec Ideal ⟨2, ![K, N]⟩ ψ₂)
    (xb : FVec Ideal ⟨2, ![B, K]⟩ φ₁) (wb : FVec Ideal ⟨2, ![K, N]⟩ φ₂)
    (p : Fin B) (r : Fin M) (b : Fin N)
    (hx : ∀ c : Fin K, (xb (ix2 p c) : EReal) = X (ix2 r c))
    (hw : ∀ c : Fin K, (wb (ix2 c b) : EReal) = W (ix2 c b)) :
    (matmul (DotDims.plain B K N) prec xb wb (constant ⟨2, ![B, N]⟩ .f32 0x00000000#32) (ix2 p b) : EReal)
      = Host.dotGeneral (DotDims.plain M K N) prec' X W (ix2 r b) := by
  rw [PlainMatmul.matmul_plain_zero_apply, StackMember.dotGeneral_plain_apply]
  exact Finset.sum_congr rfl fun c _ => by rw [hx c, hw c]

end Idealize.ShloMosaic.RowBlockProduct

end
-- ==== Proof.Blocks.lean ====
/-
  The two matrix products on the matrix unit, read as whole-array functions.

  Each region multiplies a [50000, 128] matrix by a [128, N] matrix (N = 128, then N = 64) in ten grid points. Point t
  loads rows 5000 t … 5000 t + 4999 of the left factor and the whole right factor, narrows both to bf16 (the identity
  on extended reals), multiplies them into a zero accumulator, and writes the 5000 result rows back to rows
  5000 t … 5000 t + 4999 of the result. Entry (p, q) of point t's block is the sum over k of X(5000 t + p, k)·W(k, q),
  which is entry (5000 t + p, q) of the host's product of the whole matrices; the ten blocks tile the result, so after
  the region the result array is that whole product. The region's entry contents are a parameter.
-/
import proofs.«153575_j53008486367825_1_alg».proof.Proof.Gen.KernelIdeal.Frame
import proofs.«153575_j53008486367825_1_alg».proof.Proof.LibRowBlockProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

theorem hz : (![0, 0] : Fin 2 → Nat) = fun _ => 0 := funext fun a => by fin_cases a <;> rfl

variable (V : (c : Dev nD) → (b : Ref sig .tc) → Buf (Elt Ideal) ((c : Thread nD τ).loc b))

/-! ## Region 0: a [50000, 128] matrix times a [128, 128] matrix, 5000 rows per grid point -/

theorem dims0 : dot_S5000x128_S128x128_S5000x128_1_0_0_1_n_n = DotDims.plain 5000 128 128 := rfl

/-- Entry y of a 5000-row block's product is entry i of the whole product, when i lies in y's column, the block's
    row of y is the whole matrix's row of i, and the block's right factor is the whole right factor. -/
theorem block_entry0 (X : FVec Ideal S50000x128 .f32) (W : FVec Ideal S128x128 .f32)
    (x0 : FVec Ideal S5000x128 .f32) (x1 : FVec Ideal S128x128 .f32) (y : S5000x128.Idx) (i : S50000x128.Idx)
    (hcol : i 1 = y 1)
    (hx : ∀ k : Fin 128, x0 (ix2 (y 0) k) = X (ix2 (i 0) k))
    (hw : x1 = W) :
    k0_pay1 (F := Ideal) x0 x1 y = Host.dotGeneral (F := Ideal) (DotDims.plain 50000 128 128) none X W i := by
  obtain ⟨p, q, rfl⟩ : ∃ (p : Fin 5000) (q : Fin 128), y = ix2 p q := ⟨y 0, y 1, eq_ix2 y⟩
  obtain ⟨r, b, rfl⟩ : ∃ (r : Fin 50000) (b : Fin 128), i = ix2 r b := ⟨i 0, i 1, eq_ix2 i⟩
  obtain rfl : b = q := hcol
  subst hw
  unfold k0_pay1
  rw [dims0]
  exact RowBlockProduct.matmul_rows_eq_dotGeneral none none X x1 _ _ p r b (fun k => hx k) (fun k => rfl)

/-- The printed index maps over the grid: the left factor's and the result's blocks are the point's own 5000 rows,
    the right factor's block is the whole matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product of the two arrays region 0 reads, as the host computes it. -/
def whole0 (c : Dev nD) : FVec Ideal S50000x128 .f32 :=
  Host.dotGeneral (F := Ideal) (φ₁ := .f32) (φ₂ := .f32) (DotDims.plain 50000 128 128) none
    (V c main_arg0 : FVec Ideal S50000x128 .f32) (V c main_arg5 : FVec Ideal S128x128 .f32)

/-- What grid point t writes back is its block of the whole product. -/
theorem flushed0 (c : Dev nD) (t : Fin cfg0.N) :
    (dat0 V c).flushed 2 t = ((cfg0.win 2).blk t).view.read (Elt Ideal) (whole0 V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx0 t
  funext j
  show k0_pay1 (F := Ideal) (iblk0 V c 0 t) (iblk0 V c 1 t) j = whole0 V c (((cfg0.win 2).blk t).view.emb j)
  unfold whole0
  refine block_entry0 (V c main_arg0) (V c main_arg5) (iblk0 V c 0 t) (iblk0 V c 1 t) j (((cfg0.win 2).blk t).view.emb j) ?_ ?_ ?_
  · apply Fin.ext
    show win0_2.index t (1 : Fin 2) * 128 + 1 * (j 1).val = (j 1).val
    rw [e5]; omega
  · intro k
    unfold iblk0
    rw [View.read_apply]
    show V c main_arg0 (((cfg0.win 0).blk t).view.emb (ix2 (j 0) k)) = V c main_arg0 (ix2 ((((cfg0.win 2).blk t).view.emb j) 0) k)
    refine congrArg _ ?_
    funext a; apply Fin.ext
    match a with
    | ⟨0, _⟩ => show win0_0.index t (0 : Fin 2) * 5000 + 1 * (j 0).val = win0_2.index t (0 : Fin 2) * 5000 + 1 * (j 0).val; rw [e0, e4]
    | ⟨1, _⟩ => show win0_0.index t (1 : Fin 2) * 128 + 1 * k.val = k.val; rw [e1]; omega
  · funext y
    unfold iblk0
    rw [View.read_apply]
    show V c main_arg5 (((cfg0.win 1).blk t).view.emb y) = V c main_arg5 y
    refine congrArg _ ?_
    funext a; apply Fin.ext
    match a with
    | ⟨0, _⟩ => show win0_1.index t (0 : Fin 2) * 128 + 1 * (y 0).val = (y 0).val; rw [e2]; omega
    | ⟨1, _⟩ => show win0_1.index t (1 : Fin 2) * 128 + 1 * (y 1).val = (y 1).val; rw [e3]; omega

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row r of the result lies in the block of grid point r / 5000: the ten blocks cover the array. -/
theorem cover0 (i : S50000x128.Idx) :
    ∃ t : Fin cfg0.N, (cfg0.win 2).flush t = true ∧ i ∈ ((cfg0.win 2).blk t).view.set := by
  have hN : cfg0.N = 10 := N_0
  have h0 : (i 0).val < 50000 := (i 0).isLt
  have h1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, e4, e5⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- After the region its result array holds the whole product. -/
theorem final0 (c : Dev nD) : (dat0 V c).arrAt 2 cfg0.N = whole0 V c :=
  (dat0 V c).arrAt_eq_of_cover 2 (whole0 V c) (fun t _ => flushed0 V c t) (cover0)

/-! ## Region 1: a [50000, 128] matrix times a [128, 64] matrix, 5000 rows per grid point -/

theorem dims1 : dot_S5000x128_S128x64_S5000x64_1_0_0_1_n_n = DotDims.plain 5000 128 64 := rfl

/-- Entry y of a 5000-row block's product is entry i of the whole product, when i lies in y's column, the block's
    row of y is the whole matrix's row of i, and the block's right factor is the whole right factor. -/
theorem block_entry1 (X : FVec Ideal S50000x128 .f32) (W : FVec Ideal S128x64 .f32)
    (x0 : FVec Ideal S5000x128 .f32) (x1 : FVec Ideal S128x64 .f32) (y : S5000x64.Idx) (i : S50000x64.Idx)
    (hcol : i 1 = y 1)
    (hx : ∀ k : Fin 128, x0 (ix2 (y 0) k) = X (ix2 (i 0) k))
    (hw : x1 = W) :
    k1_pay1 (F := Ideal) x0 x1 y = Host.dotGeneral (F := Ideal) (DotDims.plain 50000 128 64) none X W i := by
  obtain ⟨p, q, rfl⟩ : ∃ (p : Fin 5000) (q : Fin 64), y = ix2 p q := ⟨y 0, y 1, eq_ix2 y⟩
  obtain ⟨r, b, rfl⟩ : ∃ (r : Fin 50000) (b : Fin 64), i = ix2 r b := ⟨i 0, i 1, eq_ix2 i⟩
  obtain rfl : b = q := hcol
  subst hw
  unfold k1_pay1
  rw [dims1]
  rw [shapeCast_self]
  exact RowBlockProduct.matmul_rows_eq_dotGeneral none none X x1 _ _ p r b (fun k => hx k) (fun k => rfl)

/-- The printed index maps over the grid: the left factor's and the result's blocks are the point's own 5000 rows,
    the right factor's block is the whole matrix. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The whole product of the two arrays region 1 reads, as the host computes it. -/
def whole1 (c : Dev nD) : FVec Ideal S50000x64 .f32 :=
  Host.dotGeneral (F := Ideal) (φ₁ := .f32) (φ₂ := .f32) (DotDims.plain 50000 128 64) none
    (V c main_v43 : FVec Ideal S50000x128 .f32) (V c main_arg6 : FVec Ideal S128x64 .f32)

/-- What grid point t writes back is its block of the whole product. -/
theorem flushed1 (c : Dev nD) (t : Fin cfg1.N) :
    (dat1 V c).flushed 2 t = ((cfg1.win 2).blk t).view.read (Elt Ideal) (whole1 V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx1 t
  funext j
  show k1_pay1 (F := Ideal) (iblk1 V c 0 t) (iblk1 V c 1 t) j = whole1 V c (((cfg1.win 2).blk t).view.emb j)
  unfold whole1
  refine block_entry1 (V c main_v43) (V c main_arg6) (iblk1 V c 0 t) (iblk1 V c 1 t) j (((cfg1.win 2).blk t).view.emb j) ?_ ?_ ?_
  · apply Fin.ext
    show win1_2.index t (1 : Fin 2) * 64 + 1 * (j 1).val = (j 1).val
    rw [e5]; omega
  · intro k
    unfold iblk1
    rw [View.read_apply]
    show V c main_v43 (((cfg1.win 0).blk t).view.emb (ix2 (j 0) k)) = V c main_v43 (ix2 ((((cfg1.win 2).blk t).view.emb j) 0) k)
    refine congrArg _ ?_
    funext a; apply Fin.ext
    match a with
    | ⟨0, _⟩ => show win1_0.index t (0 : Fin 2) * 5000 + 1 * (j 0).val = win1_2.index t (0 : Fin 2) * 5000 + 1 * (j 0).val; rw [e0, e4]
    | ⟨1, _⟩ => show win1_0.index t (1 : Fin 2) * 128 + 1 * k.val = k.val; rw [e1]; omega
  · funext y
    unfold iblk1
    rw [View.read_apply]
    show V c main_arg6 (((cfg1.win 1).blk t).view.emb y) = V c main_arg6 y
    refine congrArg _ ?_
    funext a; apply Fin.ext
    match a with
    | ⟨0, _⟩ => show win1_1.index t (0 : Fin 2) * 128 + 1 * (y 0).val = (y 0).val; rw [e2]; omega
    | ⟨1, _⟩ => show win1_1.index t (1 : Fin 2) * 64 + 1 * (y 1).val = (y 1).val; rw [e3]; omega

/-- An index of the result array is in point t's block iff each coordinate is in the block's range on its axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v44).slice (win1_2.rect t)).set ↔ _
  rw [View.set_slice_whole, Rect.mem_set_unit]
  exact Iff.rfl

/-- Row r of the result lies in the block of grid point r / 5000: the ten blocks cover the array. -/
theorem cover1 (i : S50000x64.Idx) :
    ∃ t : Fin cfg1.N, (cfg1.win 2).flush t = true ∧ i ∈ ((cfg1.win 2).blk t).view.set := by
  have hN : cfg1.N = 10 := N_1
  have h0 : (i 0).val < 50000 := (i 0).isLt
  have h1 : (i 1).val < 64 := (i 1).isLt
  obtain ⟨t, ht⟩ : ∃ t : Fin cfg1.N, t.val = (i 0).val / 5000 := ⟨⟨(i 0).val / 5000, by rw [hN]; omega⟩, rfl⟩
  obtain ⟨-, -, -, -, e4, e5⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 64 ≤ (i 1).val ∧ (i 1).val < win1_2.index t (1 : Fin 2) * 64 + 64; rw [e5]; omega

/-- After the region its result array holds the whole product. -/
theorem final1 (c : Dev nD) : (dat1 V c).arrAt 2 cfg1.N = whole1 V c :=
  (dat1 V c).arrAt_eq_of_cover 2 (whole1 V c) (fun t _ => flushed1 V c t) (cover1)

end Cert.KernelIdeal.Blocks

end
-- ==== Proof.Stages.lean ====
/-
  The host side of the graph convolution as named functions of arrays.

  The program is a two-layer graph convolution on 50000 nodes and 600000 edges. The host computes, once, the edge
  lists with one self-loop appended per node, the edge weights (the given values masked by the kept-edge flags, and 1
  on the self-loops), each node's weighted in-degree d, the clipped factor d^(-1/2), and the normalised weight of
  every edge, w(e)·d^(-1/2)(row e)·d^(-1/2)(col e). A propagation step multiplies row col(e) of a node matrix by the
  edge's normalised weight and adds it into row row(e) of a zero matrix. The forward pass is
      propagate (relu (propagate (x·W0)) · W1),
  and the two programs compared differ only in who computes the two dense products. Everything else is stated here
  once, as functions the later modules never open.
-/
import proofs.«153575_j53008486367825_1_alg».proof.Proof.Gen.KernelIdeal

noncomputable section

namespace Cert.KernelIdeal.Stages

open Cert.KernelIdeal Cert.KernelIdeal.Gen Idealize.ShloMosaic

variable {F : FTy → Type} [FloatOps F]

/-- An edge endpoint list followed by the nodes 0 … 49999 (one self-loop per node). -/
def withLoops (e : (⟨S600000, .i32⟩ : BufTy).Contents (Elt F)) : (⟨S650000, .i32⟩ : BufTy).Contents (Elt F) :=
  concatenate S650000 0 [⟨S600000, e⟩, ⟨S50000, (iotaInDim S50000 32 0)⟩] concatenates_S600000_S50000_S650000_d0

/-- The edge weights: the given values times the kept-edge flags, then 1 for every self-loop. -/
def weights (vals : (⟨S600000, .f32⟩ : BufTy).Contents (Elt F)) (mask : (⟨S600000, .i1⟩ : BufTy).Contents (Elt F)) : (⟨S650000, .f32⟩ : BufTy).Contents (Elt F) :=
  concatenate S650000 0 [⟨S600000, (mulf vals (uitofp .f32 mask))⟩, ⟨S50000, (broadcastInDim S50000 ![] bcast_S_S50000 (constant S_ .f32 0x3F800000#32))⟩] concatenates_S600000_S50000_S650000_d0

/-- A per-edge array as a column. -/
def asColumn {e : EltTy} (x : (⟨S650000, e⟩ : BufTy).Contents (Elt F)) : (⟨S650000x1, e⟩ : BufTy).Contents (Elt F) :=
  broadcastInDim S650000x1 ![0] bcast_S650000_S650000x1_0 x

/-- Node numbers with the negative ones counted from the end. -/
def wrapped (x : (⟨S650000, .i32⟩ : BufTy).Contents (Elt F)) : (⟨S650000, .i32⟩ : BufTy).Contents (Elt F) :=
  select (cmpi .slt (x) (broadcastInDim S650000 ![] bcast_S_S650000 (constantI S_ 32 0#32))) (addi (x) (broadcastInDim S650000 ![] bcast_S_S650000 (constantI S_ 32 50000#32))) (x)

/-- A per-node array clipped from below by lo and from above by hi. -/
def clipped (lo hi : (⟨S_, .f32⟩ : BufTy).Contents (Elt F)) (x : (⟨S50000, .f32⟩ : BufTy).Contents (Elt F)) : (⟨S50000, .f32⟩ : BufTy).Contents (Elt F) :=
  minimumf (broadcastInDim S50000 ![] bcast_S_S50000 (id hi)) (maximumf (broadcastInDim S50000 ![] bcast_S_S50000 (id lo)) x)

/-- Each node's factor: its weighted in-degree to the power -1/2, clipped to [0, 10]. -/
def degreeFactor (rows : (⟨S650000, .i32⟩ : BufTy).Contents (Elt F)) (w : (⟨S650000, .f32⟩ : BufTy).Contents (Elt F)) : (⟨S50000, .f32⟩ : BufTy).Contents (Elt F) :=
  clipped (constant S_ .f32 0x00000000#32) (constant S_ .f32 0x41200000#32) (Host.powf (Host.scatterAdd scatter_S50000_S650000x1_S650000_n_0_0_1 (broadcastInDim S50000 ![] bcast_S_S50000 (constant S_ .f32 0x00000000#32)) (asColumn rows) w) (broadcastInDim S50000 ![] bcast_S_S50000 (constant S_ .f32 0xBF000000#32)))

/-- Each edge's weight times a per-node factor taken at its two endpoints. -/
def scaled (w : (⟨S650000, .f32⟩ : BufTy).Contents (Elt F)) (f : (⟨S50000, .f32⟩ : BufTy).Contents (Elt F)) (rows cols : (⟨S650000, .i32⟩ : BufTy).Contents (Elt F)) : (⟨S650000, .f32⟩ : BufTy).Contents (Elt F) :=
  mulf (mulf w (Host.gather gather_S50000_S650000x1_S650000_n_0_n_n_0_1_1 f (asColumn (wrapped rows)))) (Host.gather gather_S50000_S650000x1_S650000_n_0_n_n_0_1_1 f (asColumn (wrapped cols)))

/-- Each edge's normalised weight: its weight times the degree factors of its two endpoints. -/
def normalised (rows cols : (⟨S650000, .i32⟩ : BufTy).Contents (Elt F)) (w : (⟨S650000, .f32⟩ : BufTy).Contents (Elt F)) : (⟨S650000, .f32⟩ : BufTy).Contents (Elt F) :=
  scaled w (degreeFactor rows w) rows cols

/-- One propagation step on a [50000, 128] node matrix. -/
def propagate128 (nv : (⟨S650000, .f32⟩ : BufTy).Contents (Elt F)) (rows cols : (⟨S650000, .i32⟩ : BufTy).Contents (Elt F)) (y : (⟨S50000x128, .f32⟩ : BufTy).Contents (Elt F)) : (⟨S50000x128, .f32⟩ : BufTy).Contents (Elt F) :=
  Host.scatterAdd scatter_S50000x128_S650000x1_S650000x128_1_0_0_1 (broadcastInDim S50000x128 ![] bcast_S_S50000x128 (constant S_ .f32 0x00000000#32)) (asColumn rows) (mulf (broadcastInDim S650000x128 ![0, 1] bcast_S650000x1_S650000x128_0_1 (asColumn nv)) (Host.gather gather_S50000x128_S650000x1_S650000x128_1_0_n_n_0_1_1128 y (asColumn (wrapped cols))))

/-- The larger of each entry and zero. -/
def relu128 (z : (⟨S50000x128, .f32⟩ : BufTy).Contents (Elt F)) : (⟨S50000x128, .f32⟩ : BufTy).Contents (Elt F) :=
  maximumf z (broadcastInDim S50000x128 ![] bcast_S_S50000x128 (constant S_ .f32 0x00000000#32))

/-- One propagation step on a [50000, 64] node matrix. -/
def propagate64 (nv : (⟨S650000, .f32⟩ : BufTy).Contents (Elt F)) (rows cols : (⟨S650000, .i32⟩ : BufTy).Contents (Elt F)) (y : (⟨S50000x64, .f32⟩ : BufTy).Contents (Elt F)) : (⟨S50000x64, .f32⟩ : BufTy).Contents (Elt F) :=
  Host.scatterAdd scatter_S50000x64_S650000x1_S650000x64_1_0_0_1 (broadcastInDim S50000x64 ![] bcast_S_S50000x64 (constant S_ .f32 0x00000000#32)) (asColumn rows) (mulf (broadcastInDim S650000x64 ![0, 1] bcast_S650000x1_S650000x64_0_1 (asColumn nv)) (Host.gather gather_S50000x64_S650000x1_S650000x64_1_0_n_n_0_1_164 y (asColumn (wrapped cols))))

/-- The forward pass, given the two dense products as functions: propagate, relu, second product, propagate. -/
def forward (dot0 : (⟨S50000x128, .f32⟩ : BufTy).Contents (Elt F) → (⟨S128x128, .f32⟩ : BufTy).Contents (Elt F) → (⟨S50000x128, .f32⟩ : BufTy).Contents (Elt F))
    (dot1 : (⟨S50000x128, .f32⟩ : BufTy).Contents (Elt F) → (⟨S128x64, .f32⟩ : BufTy).Contents (Elt F) → (⟨S50000x64, .f32⟩ : BufTy).Contents (Elt F))
    (x : (⟨S50000x128, .f32⟩ : BufTy).Contents (Elt F)) (erow ecol : (⟨S600000, .i32⟩ : BufTy).Contents (Elt F)) (vals : (⟨S600000, .f32⟩ : BufTy).Contents (Elt F)) (mask : (⟨S600000, .i1⟩ : BufTy).Contents (Elt F))
    (w0 : (⟨S128x128, .f32⟩ : BufTy).Contents (Elt F)) (w1 : (⟨S128x64, .f32⟩ : BufTy).Contents (Elt F)) : (⟨S50000x64, .f32⟩ : BufTy).Contents (Elt F) :=
  propagate64 (normalised (withLoops erow) (withLoops ecol) (weights vals mask)) (withLoops erow) (withLoops ecol)
    (dot1 (relu128 (propagate128 (normalised (withLoops erow) (withLoops ecol) (weights vals mask)) (withLoops erow) (withLoops ecol)
      (dot0 x w0))) w1)

end Cert.KernelIdeal.Stages

end
-- ==== Proof.KernelValue.lean ====
/-
  The idealized kernel's result as one function of its arguments.

  The buffer contents at the eight segment boundaries are followed from the launch memory to the result: the three
  stretches before the first region compute the edge lists with self-loops and the normalised edge weights; the first
  region leaves x·W0 in its result array (the block lemmas); the stretches between the regions propagate it and apply
  relu; the second region leaves that times W1; the last stretch propagates again. Buffers a segment does not write
  keep their contents across it.
-/
import proofs.«153575_j53008486367825_1_alg».proof.Proof.Blocks
import proofs.«153575_j53008486367825_1_alg».proof.Proof.Stages
import Idealize.ShloMosaic.Lib.StableHlo.Run

set_option maxRecDepth 16384

noncomputable section

namespace Cert.KernelIdeal.Whole

open Cert.KernelIdeal Cert.KernelIdeal.Gen Cert.KernelIdeal.Stages Cert.KernelIdeal.Blocks
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first region -/

/-! The first stretch: the edge lists with self-loops, the edge weights, the in-degrees to the power -1/2, and the two
    clipping bounds. -/

theorem rows1 : W1 m ρ c (Proc.devRef .tc main_v3) = withLoops (m ((c.tc : Thread nD τ).loc main_arg1)) := by
  show StableHlo.after hostOps0 (W0 m ρ c) (Proc.devRef .tc main_v3) = _
  after_results
  rfl

theorem cols1 : W1 m ρ c (Proc.devRef .tc main_v4) = withLoops (m ((c.tc : Thread nD τ).loc main_arg2)) := by
  show StableHlo.after hostOps0 (W0 m ρ c) (Proc.devRef .tc main_v4) = _
  after_results
  rfl

theorem weights1 : W1 m ρ c (Proc.devRef .tc main_v6) = weights (m ((c.tc : Thread nD τ).loc main_arg3)) (m ((c.tc : Thread nD τ).loc main_arg4)) := by
  show StableHlo.after hostOps0 (W0 m ρ c) (Proc.devRef .tc main_v6) = _
  after_results
  rfl

theorem power1 : W1 m ρ c (Proc.devRef .tc main_v11) = Host.powf (Host.scatterAdd scatter_S50000_S650000x1_S650000_n_0_0_1 (broadcastInDim S50000 ![] bcast_S_S50000 (constant S_ .f32 0x00000000#32)) (asColumn (withLoops (m ((c.tc : Thread nD τ).loc main_arg1)))) (weights (m ((c.tc : Thread nD τ).loc main_arg3)) (m ((c.tc : Thread nD τ).loc main_arg4)))) (broadcastInDim S50000 ![] bcast_S_S50000 (constant S_ .f32 0xBF000000#32)) := by
  show StableHlo.after hostOps0 (W0 m ρ c) (Proc.devRef .tc main_v11) = _
  after_results_simp
  rfl

theorem low1 : W1 m ρ c (Proc.devRef .tc main_cst_2) = constant (F := Ideal) S_ .f32 0x00000000#32 := by
  show StableHlo.after hostOps0 (W0 m ρ c) (Proc.devRef .tc main_cst_2) = _
  after_results

theorem high1 : W1 m ρ c (Proc.devRef .tc main_cst_3) = constant (F := Ideal) S_ .f32 0x41200000#32 := by
  show StableHlo.after hostOps0 (W0 m ρ c) (Proc.devRef .tc main_cst_3) = _
  after_results

/-! The second stretch clips; it writes none of the edge arrays. -/

/-- The six operations of the clip, from any contents: the smaller of the upper bound and the larger of the lower
    bound and the operand. -/
theorem clip_after (U : Valuation τ sig (Elt Ideal)) :
    StableHlo.after hostOps0_1 U (Proc.devRef .tc main_v12)
      = clipped (U (Proc.devRef .tc main_cst_2)) (U (Proc.devRef .tc main_cst_3)) (U (Proc.devRef .tc main_v11)) := by
  after_results
  rfl

theorem factor2 : W2 m ρ c (Proc.devRef .tc main_v12) = degreeFactor (withLoops (m ((c.tc : Thread nD τ).loc main_arg1))) (weights (m ((c.tc : Thread nD τ).loc main_arg3)) (m ((c.tc : Thread nD τ).loc main_arg4))) := by
  refine (clip_after (W1 m ρ c)).trans ?_
  rw [power1 m ρ c, low1 m ρ c, high1 m ρ c]
  rfl

theorem rows2 : W2 m ρ c (Proc.devRef .tc main_v3) = withLoops (m ((c.tc : Thread nD τ).loc main_arg1)) := by
  show StableHlo.after hostOps0_1 (W1 m ρ c) (Proc.devRef .tc main_v3) = _
  after_results
  exact rows1 m ρ c

theorem cols2 : W2 m ρ c (Proc.devRef .tc main_v4) = withLoops (m ((c.tc : Thread nD τ).loc main_arg2)) := by
  show StableHlo.after hostOps0_1 (W1 m ρ c) (Proc.devRef .tc main_v4) = _
  after_results
  exact cols1 m ρ c

theorem weights2 : W2 m ρ c (Proc.devRef .tc main_v6) = weights (m ((c.tc : Thread nD τ).loc main_arg3)) (m ((c.tc : Thread nD τ).loc main_arg4)) := by
  show StableHlo.after hostOps0_1 (W1 m ρ c) (Proc.devRef .tc main_v6) = _
  after_results
  exact weights1 m ρ c

/-! The third stretch multiplies each edge's weight by the factors of its two endpoints. -/

/-- The twenty operations of the third stretch, from any contents. -/
theorem normalised_after (U : Valuation τ sig (Elt Ideal)) :
    StableHlo.after hostOps0_2 U (Proc.devRef .tc main_v28)
      = scaled (U (Proc.devRef .tc main_v6)) (U (Proc.devRef .tc main_v12)) (U (Proc.devRef .tc main_v3)) (U (Proc.devRef .tc main_v4)) := by
  after_results_simp
  rfl

theorem weights3 : W3 m ρ c (Proc.devRef .tc main_v28) = normalised (withLoops (m ((c.tc : Thread nD τ).loc main_arg1))) (withLoops (m ((c.tc : Thread nD τ).loc main_arg2))) (weights (m ((c.tc : Thread nD τ).loc main_arg3)) (m ((c.tc : Thread nD τ).loc main_arg4))) := by
  refine (normalised_after (W2 m ρ c)).trans ?_
  rw [weights2 m ρ c, factor2 m ρ c, rows2 m ρ c, cols2 m ρ c]
  rfl

theorem rows3 : W3 m ρ c (Proc.devRef .tc main_v3) = withLoops (m ((c.tc : Thread nD τ).loc main_arg1)) := by
  show StableHlo.after hostOps0_2 (W2 m ρ c) (Proc.devRef .tc main_v3) = _
  after_results
  exact rows2 m ρ c

theorem cols3 : W3 m ρ c (Proc.devRef .tc main_v4) = withLoops (m ((c.tc : Thread nD τ).loc main_arg2)) := by
  show StableHlo.after hostOps0_2 (W2 m ρ c) (Proc.devRef .tc main_v4) = _
  after_results
  exact cols2 m ρ c

theorem x3 : V3 m ρ c main_arg0 = (m ((c.tc : Thread nD τ).loc main_arg0)) := by
  show StableHlo.after hostOps0_2 (StableHlo.after hostOps0_1 (StableHlo.after hostOps0 (W0 m ρ c))) (Proc.devRef .tc main_arg0) = _
  after_results

theorem w03 : V3 m ρ c main_arg5 = (m ((c.tc : Thread nD τ).loc main_arg5)) := by
  show StableHlo.after hostOps0_2 (StableHlo.after hostOps0_1 (StableHlo.after hostOps0 (W0 m ρ c))) (Proc.devRef .tc main_arg5) = _
  after_results

theorem w13 : W3 m ρ c (Proc.devRef .tc main_arg6) = (m ((c.tc : Thread nD τ).loc main_arg6)) := by
  show StableHlo.after hostOps0_2 (StableHlo.after hostOps0_1 (StableHlo.after hostOps0 (W0 m ρ c))) (Proc.devRef .tc main_arg6) = _
  after_results

/-! ## The first region, and the stretches between the regions -/

/-- The first region leaves the product of the first two dense arguments in its result array. -/
theorem product4 : W4 m ρ c (Proc.devRef .tc main_v29) = Host.dotGeneral (F := Ideal) (φ₁ := .f32) (φ₂ := .f32) (DotDims.plain 50000 128 128) none (m ((c.tc : Thread nD τ).loc main_arg0)) (m ((c.tc : Thread nD τ).loc main_arg5)) := by
  refine (W4_arr m ρ c 2).trans ((final0 (V3 m ρ) c).trans ?_)
  unfold whole0
  rw [x3 m ρ c, w03 m ρ c]

theorem rows4 : W4 m ρ c (Proc.devRef .tc main_v3) = withLoops (m ((c.tc : Thread nD τ).loc main_arg1)) :=
  (W4_of_ne m ρ c main_v3 (by decide)).trans (rows3 m ρ c)

theorem rows6 : W6 m ρ c (Proc.devRef .tc main_v3) = withLoops (m ((c.tc : Thread nD τ).loc main_arg1)) := by
  show StableHlo.after hostOps1_1 (StableHlo.after hostOps1 (W4 m ρ c)) (Proc.devRef .tc main_v3) = _
  after_results
  exact rows4 m ρ c

theorem cols4 : W4 m ρ c (Proc.devRef .tc main_v4) = withLoops (m ((c.tc : Thread nD τ).loc main_arg2)) :=
  (W4_of_ne m ρ c main_v4 (by decide)).trans (cols3 m ρ c)

theorem cols6 : W6 m ρ c (Proc.devRef .tc main_v4) = withLoops (m ((c.tc : Thread nD τ).loc main_arg2)) := by
  show StableHlo.after hostOps1_1 (StableHlo.after hostOps1 (W4 m ρ c)) (Proc.devRef .tc main_v4) = _
  after_results
  exact cols4 m ρ c

theorem weights4 : W4 m ρ c (Proc.devRef .tc main_v28) = normalised (withLoops (m ((c.tc : Thread nD τ).loc main_arg1))) (withLoops (m ((c.tc : Thread nD τ).loc main_arg2))) (weights (m ((c.tc : Thread nD τ).loc main_arg3)) (m ((c.tc : Thread nD τ).loc main_arg4))) :=
  (W4_of_ne m ρ c main_v28 (by decide)).trans (weights3 m ρ c)

theorem weights6 : W6 m ρ c (Proc.devRef .tc main_v28) = normalised (withLoops (m ((c.tc : Thread nD τ).loc main_arg1))) (withLoops (m ((c.tc : Thread nD τ).loc main_arg2))) (weights (m ((c.tc : Thread nD τ).loc main_arg3)) (m ((c.tc : Thread nD τ).loc main_arg4))) := by
  show StableHlo.after hostOps1_1 (StableHlo.after hostOps1 (W4 m ρ c)) (Proc.devRef .tc main_v28) = _
  after_results
  exact weights4 m ρ c

theorem w14 : W4 m ρ c (Proc.devRef .tc main_arg6) = (m ((c.tc : Thread nD τ).loc main_arg6)) :=
  (W4_of_ne m ρ c main_arg6 (by decide)).trans (w13 m ρ c)

theorem w16 : W6 m ρ c (Proc.devRef .tc main_arg6) = (m ((c.tc : Thread nD τ).loc main_arg6)) := by
  show StableHlo.after hostOps1_1 (StableHlo.after hostOps1 (W4 m ρ c)) (Proc.devRef .tc main_arg6) = _
  after_results
  exact w14 m ρ c

/-- The first product propagated, in terms of the buffers at the first region's exit. -/
theorem propagated5 : W5 m ρ c (Proc.devRef .tc main_v42)
    = propagate128 (W4 m ρ c (Proc.devRef .tc main_v28)) (W4 m ρ c (Proc.devRef .tc main_v3)) (W4 m ρ c (Proc.devRef .tc main_v4)) (W4 m ρ c (Proc.devRef .tc main_v29)) := by
  show StableHlo.after hostOps1 (W4 m ρ c) (Proc.devRef .tc main_v42) = _
  after_results_simp
  rfl

/-- The three operations of relu, from any contents: the larger of the propagated matrix and zero. -/
theorem relu_after (U : Valuation τ sig (Elt Ideal)) :
    StableHlo.after hostOps1_1 U (Proc.devRef .tc main_v43) = relu128 (U (Proc.devRef .tc main_v42)) := by
  after_results
  rfl

/-- The second region's left factor in terms of the buffers at the first region's exit. -/
theorem hidden6_at4 : V6 m ρ c main_v43
    = relu128 (propagate128 (W4 m ρ c (Proc.devRef .tc main_v28)) (W4 m ρ c (Proc.devRef .tc main_v3)) (W4 m ρ c (Proc.devRef .tc main_v4)) (W4 m ρ c (Proc.devRef .tc main_v29))) :=
  (relu_after (W5 m ρ c)).trans (congrArg relu128 (propagated5 m ρ c))

/-- The second region's left factor: the first product propagated, then relu. -/
theorem hidden6 : V6 m ρ c main_v43 = relu128 (propagate128 (normalised (withLoops (m ((c.tc : Thread nD τ).loc main_arg1))) (withLoops (m ((c.tc : Thread nD τ).loc main_arg2))) (weights (m ((c.tc : Thread nD τ).loc main_arg3)) (m ((c.tc : Thread nD τ).loc main_arg4)))) (withLoops (m ((c.tc : Thread nD τ).loc main_arg1))) (withLoops (m ((c.tc : Thread nD τ).loc main_arg2))) (Host.dotGeneral (F := Ideal) (φ₁ := .f32) (φ₂ := .f32) (DotDims.plain 50000 128 128) none (m ((c.tc : Thread nD τ).loc main_arg0)) (m ((c.tc : Thread nD τ).loc main_arg5)))) := by
  rw [hidden6_at4 m ρ c, weights4 m ρ c, rows4 m ρ c, cols4 m ρ c, product4 m ρ c]

/-! ## The second region and the last stretch -/

/-- The second region leaves the hidden layer times the last dense argument in its result array. -/
theorem product7 : W7 m ρ c (Proc.devRef .tc main_v44) = Host.dotGeneral (F := Ideal) (φ₁ := .f32) (φ₂ := .f32) (DotDims.plain 50000 128 64) none (relu128 (propagate128 (normalised (withLoops (m ((c.tc : Thread nD τ).loc main_arg1))) (withLoops (m ((c.tc : Thread nD τ).loc main_arg2))) (weights (m ((c.tc : Thread nD τ).loc main_arg3)) (m ((c.tc : Thread nD τ).loc main_arg4)))) (withLoops (m ((c.tc : Thread nD τ).loc main_arg1))) (withLoops (m ((c.tc : Thread nD τ).loc main_arg2))) (Host.dotGeneral (F := Ideal) (φ₁ := .f32) (φ₂ := .f32) (DotDims.plain 50000 128 128) none (m ((c.tc : Thread nD τ).loc main_arg0)) (m ((c.tc : Thread nD τ).loc main_arg5))))) (m ((c.tc : Thread nD τ).loc main_arg6)) := by
  refine (W7_arr m ρ c 2).trans ((final1 (V6 m ρ) c).trans ?_)
  unfold whole1
  rw [hidden6 m ρ c, show V6 m ρ c main_arg6 = (m ((c.tc : Thread nD τ).loc main_arg6)) from w16 m ρ c]

theorem rows7 : W7 m ρ c (Proc.devRef .tc main_v3) = withLoops (m ((c.tc : Thread nD τ).loc main_arg1)) :=
  (W7_of_ne m ρ c main_v3 (by decide)).trans (rows6 m ρ c)

theorem cols7 : W7 m ρ c (Proc.devRef .tc main_v4) = withLoops (m ((c.tc : Thread nD τ).loc main_arg2)) :=
  (W7_of_ne m ρ c main_v4 (by decide)).trans (cols6 m ρ c)

theorem weights7 : W7 m ρ c (Proc.devRef .tc main_v28) = normalised (withLoops (m ((c.tc : Thread nD τ).loc main_arg1))) (withLoops (m ((c.tc : Thread nD τ).loc main_arg2))) (weights (m ((c.tc : Thread nD τ).loc main_arg3)) (m ((c.tc : Thread nD τ).loc main_arg4))) :=
  (W7_of_ne m ρ c main_v28 (by decide)).trans (weights6 m ρ c)

/-- The result buffer at the last boundary in terms of the buffers at the second region's exit. -/
theorem result8_at7 : W8 m ρ c (Proc.devRef .tc main_v57)
    = propagate64 (W7 m ρ c (Proc.devRef .tc main_v28)) (W7 m ρ c (Proc.devRef .tc main_v3)) (W7 m ρ c (Proc.devRef .tc main_v4)) (W7 m ρ c (Proc.devRef .tc main_v44)) := by
  show StableHlo.after hostOps2 (W7 m ρ c) (Proc.devRef .tc main_v57) = _
  after_results_simp
  rfl

/-- The result buffer at the last boundary is the forward pass of the arguments, the two dense products being the
    host's products of the whole matrices. -/
theorem result8 : W8 m ρ c (Proc.devRef .tc main_v57)
    = forward (Host.dotGeneral (F := Ideal) (φ₁ := .f32) (φ₂ := .f32) (DotDims.plain 50000 128 128) none) (Host.dotGeneral (F := Ideal) (φ₁ := .f32) (φ₂ := .f32) (DotDims.plain 50000 128 64) none) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [result8_at7 m ρ c, weights7 m ρ c, rows7 m ρ c, cols7 m ρ c, product7 m ρ c]
  rfl

end Cert.KernelIdeal.Whole

end
-- ==== Proof.RefValue.lean ====
/-
  The reference's result as the same function of its arguments.

  The reference computes the two dense products on the host; everything around them is, operation by operation, what
  the kernel's program does around its two regions. Its run's composed term is therefore the forward pass with the
  host's products in the two places, once the named stages are unfolded.
-/
import proofs.«153575_j53008486367825_1_alg».proof.Proof.Gen.ReferenceIdeal.Run
import proofs.«153575_j53008486367825_1_alg».proof.Proof.Stages
import Idealize.ShloMosaic.PureOps.Ideal

set_option maxRecDepth 16384

noncomputable section

namespace Cert.ReferenceIdeal.RefValue

open Cert.ReferenceIdeal Cert.ReferenceIdeal.Gen Cert.KernelIdeal.Stages
open Idealize.ShloMosaic Idealize.ShloMosaic.TcCoe Idealize.SL.Sem

/-- The record the reference's first product is printed with is the plain [50000,128]×[128,128] one. -/
theorem dims0 : dot_S50000x128_S128x128_S50000x128_1_0_0_1_n_n = DotDims.plain 50000 128 128 := rfl
/-- The record the reference's second product is printed with is the plain [50000,128]×[128,64] one. -/
theorem dims1 : dot_S50000x128_S128x64_S50000x64_1_0_0_1_n_n = DotDims.plain 50000 128 64 := rfl

/-- The reference run's result term is the forward pass of its arguments with the host's two products. -/
theorem result_eq (m : (ℓ : Loc nD τ sig) → Buf (Elt Ideal) ℓ) (c : Dev nD) :
    Value.res_main_v57 (F := Ideal) m c
      = forward (Host.dotGeneral (F := Ideal) (φ₁ := .f32) (φ₂ := .f32) (DotDims.plain 50000 128 128) none) (Host.dotGeneral (F := Ideal) (φ₁ := .f32) (φ₂ := .f32) (DotDims.plain 50000 128 64) none) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Value.res_main_v57
  rw [dims0, dims1]
  unfold forward propagate64 relu128 propagate128 normalised scaled degreeFactor clipped wrapped asColumn weights withLoops
  rfl

end Cert.ReferenceIdeal.RefValue

end
-- ==== Proof.lean ====
/-
  The idealized kernel and the idealized reference compute the same two-layer graph convolution.

  Both programs build, on the host and by the same operations, the edge lists with one self-loop per node, the
  normalised edge weights w(e)·d^(-1/2)(row e)·d^(-1/2)(col e), and the two propagation steps (multiply row col(e) of a
  node matrix by the edge's weight, add it into row row(e)). They differ only in the two dense products x·W0 and
  relu(propagate(x·W0))·W1: the reference takes them on the host, the kernel on the matrix unit, ten blocks of 5000
  rows each, the operands narrowed to bf16 and accumulated in f32 from zero. Read over the extended reals a change of
  float format is the identity and a product accumulated from zero is the plain sum over the contracted index, so
  every entry of a block's product is the same sum as the corresponding entry of the whole product, and the ten
  blocks tile the result. No finiteness is used: the sums on the two sides are the same sums term by term.

  The frames of the two kernels are the generated ones; the reference's frame is its generated run with the result
  dropped; the idealization rewrote nothing.
-/
import proofs.«153575_j53008486367825_1_alg».proof.Defs
import proofs.«153575_j53008486367825_1_alg».proof.Proof.Gen.Kernel
import proofs.«153575_j53008486367825_1_alg».proof.Proof.Gen.Kernel.Skeleton
import proofs.«153575_j53008486367825_1_alg».proof.Proof.Gen.Kernel.Launch
import proofs.«153575_j53008486367825_1_alg».proof.Proof.Gen.Kernel.Points
import proofs.«153575_j53008486367825_1_alg».proof.Proof.Gen.Kernel.Frame
import proofs.«153575_j53008486367825_1_alg».proof.Proof.Gen.KernelIdeal
import proofs.«153575_j53008486367825_1_alg».proof.Proof.Gen.KernelIdeal.Skeleton
import proofs.«153575_j53008486367825_1_alg».proof.Proof.Gen.KernelIdeal.Launch
import proofs.«153575_j53008486367825_1_alg».proof.Proof.Gen.KernelIdeal.Points
import proofs.«153575_j53008486367825_1_alg».proof.Proof.Gen.KernelIdeal.Frame
import proofs.«153575_j53008486367825_1_alg».proof.Proof.Gen.ReferenceIdeal
import proofs.«153575_j53008486367825_1_alg».proof.Proof.Gen.Pre_finite_inputs
import proofs.«153575_j53008486367825_1_alg».proof.Proof.Gen.ReferenceIdeal.Run
import proofs.«153575_j53008486367825_1_alg».proof.Proof.KernelRun
import proofs.«153575_j53008486367825_1_alg».proof.Proof.KernelValue
import proofs.«153575_j53008486367825_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the forward pass of the arguments, the two dense products being the products of the
    whole matrices: the kernel by the block lemmas, the reference by its own operations. -/
theorem algebraic : Cert.algebraic_KernelIdeal_ReferenceIdeal := by
  intro m ρ m' ρ' _ hagree
  refine ⟨fun c => Cert.KernelIdeal.Stages.forward (Host.dotGeneral (F := Ideal) (φ₁ := .f32) (φ₂ := .f32) (DotDims.plain 50000 128 128) none) (Host.dotGeneral (F := Ideal) (φ₁ := .f32) (φ₂ := .f32) (DotDims.plain 50000 128 64) none)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Whole.result8 m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq]
    obtain ⟨h0, h1, h2, h3, h4, h5, h6⟩ := hagree c
    rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
